-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S1000000 32) (main_arg2 : IVec S1000000 32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 60
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64, .f32⟩
  | .hbm, ⟨5, _⟩ => ⟨S_, .f32⟩
  | .hbm, ⟨6, _⟩ => ⟨S1000000, .f32⟩
  | .hbm, ⟨7, _⟩ => ⟨S_, .f32⟩
  | .hbm, ⟨8, _⟩ => ⟨S100000, .f32⟩
  | .hbm, ⟨9, _⟩ => ⟨S1000000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000x1, .f32⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x1, .f32⟩
  | .hbm, ⟨27, _⟩ => ⟨S_, .i32⟩
  | .hbm, ⟨28, _⟩ => ⟨S1000000, .i32⟩
  | .hbm, ⟨29, _⟩ => ⟨S1000000, .i1⟩
  | .hbm, ⟨30, _⟩ => ⟨S_, .i32⟩
  | .hbm, ⟨31, _⟩ => ⟨S1000000, .i32⟩
  | .hbm, ⟨32, _⟩ => ⟨S1000000, .i32⟩
  | .hbm, ⟨33, _⟩ => ⟨S1000000, .i32⟩
  | .hbm, ⟨34, _⟩ => ⟨S1000000x1, .i32⟩
  | .hbm, ⟨35, _⟩ => ⟨S1000000x64, .f32⟩
  | .hbm, ⟨36, _⟩ => ⟨S1000000x64, .f32⟩
  | .hbm, ⟨37, _⟩ => ⟨S1000000x64, .f32⟩
  | .hbm, ⟨38, _⟩ => ⟨S_, .f32⟩
  | .hbm, ⟨39, _⟩ => ⟨S100000x64, .f32⟩
  | .hbm, ⟨40, _⟩ => ⟨S1000000x1, .i32⟩
  | .hbm, ⟨41, _⟩ => ⟨S100000x64, .f32⟩
  | .hbm, ⟨42, _⟩ => ⟨S1000000x1, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000x64, .f32⟩
  | .hbm, ⟨52, _⟩ => ⟨S1000000x64, .f32⟩
  | .hbm, ⟨53, _⟩ => ⟨S1000000x64, .f32⟩
  | .hbm, ⟨54, _⟩ => ⟨S_, .f32⟩
  | .hbm, ⟨55, _⟩ => ⟨S100000x64, .f32⟩
  | .hbm, ⟨56, _⟩ => ⟨S1000000x1, .i32⟩
  | .hbm, ⟨57, _⟩ => ⟨S100000x64, .f32⟩
  | .hbm, ⟨58, _⟩ => ⟨S1x64, .f32⟩
  | .hbm, ⟨59, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_4 : Ref sig .tc := ⟨.hbm, 27, rfl⟩
abbrev main_v16 : Ref sig .tc := ⟨.hbm, 28, rfl⟩
abbrev main_v17 : Ref sig .tc := ⟨.hbm, 29, rfl⟩
abbrev main_c_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1000000x1_S1000000_n_0_0_1_wf : ScatterDims.WF S100000 S1000000x1 S1000000 [] [0] [0] 1
  gather_S100000x1_S1000000x1_S1000000x1_1_0_n_n_0_1_11_wf : GatherDims.WF S100000x1 S1000000x1 S1000000x1 [1] [0] [] [0] [] 1 ![1, 1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x1_S1000000x1_S1000000x1_1_0_n_n_0_1_11 : GatherDims S100000x1 S1000000x1 S1000000x1 where
  offsetDims := [1]
  collapsedSliceDims := [0]
  operandBatchingDims := []
  startIndicesBatchingDims := []
  startIndexMap := [0]
  indexVectorDim := 1
  sliceSizes := ![1, 1]
  wf := gather_S100000x1_S1000000x1_S1000000x1_1_0_n_n_0_1_11_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v40) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v41) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v42) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000000 : Shape := ⟨1, ![1000000]⟩
abbrev S64x64 : Shape := ⟨2, ![64, 64]⟩
abbrev S64 : Shape := ⟨1, ![64]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩

abbrev nBuf : Space → Nat
  | .hbm => 56
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64, .f32⟩
  | .hbm, ⟨5, _⟩ => ⟨S_, .f32⟩
  | .hbm, ⟨6, _⟩ => ⟨S1000000, .f32⟩
  | .hbm, ⟨7, _⟩ => ⟨S_, .f32⟩
  | .hbm, ⟨8, _⟩ => ⟨S100000, .f32⟩
  | .hbm, ⟨9, _⟩ => ⟨S1000000x1, .i32⟩
  | .hbm, ⟨10, _⟩ => ⟨S100000, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000x1, .f32⟩
  | .hbm, ⟨18, _⟩ => ⟨S100000x64, .f32⟩
  | .hbm, ⟨19, _⟩ => ⟨S100000x64, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x64, .f32⟩
  | .hbm, ⟨29, _⟩ => ⟨S_, .f32⟩
  | .hbm, ⟨30, _⟩ => ⟨S100000x64, .f32⟩
  | .hbm, ⟨31, _⟩ => ⟨S1000000x1, .i32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x64, .f32⟩
  | .hbm, ⟨46, _⟩ => ⟨S_, .f32⟩
  | .hbm, ⟨47, _⟩ => ⟨S100000x64, .f32⟩
  | .hbm, ⟨48, _⟩ => ⟨S1000000x1, .i32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.DenseBlock.lean ====
/-
  THE KERNEL BODY AT ONE ENTRY OF ITS BLOCK.

  At a grid point the body holds a block `x : [5000, 64]` of the propagated features, the matching block
  `n : [5000, 1]` of per-node factors, the whole weight matrix `W : [64, 64]` and the bias as a row `b : [1, 64]`,
  and stores `(x · n) W + b`: each row of `x` is scaled by its node's factor, the scaled block is multiplied by `W`
  into a zero accumulator, and the bias row is added to every row. Read on the extended reals, where narrowing an
  operand to bf16 changes nothing, entry `(p, q)` of what is stored is
      Σ_k (x (p, k) · n (p, 0)) · W (k, q)  +  b (0, q).
-/
import proofs.«133800_j90108413870524_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Dense

open Cert.KernelIdeal Cert.KernelIdeal.Gen Cert.KernelIdeal.Facts₀ Idealize.ShloMosaic Idealize.ShloMosaic.ValueIdx

/-! ## The product of a block with the weights -/

theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The block's product with the weights into the zero accumulator, read at `(p, q)`: the sum over the contracted
    coordinate `k` of the left operand at `(p, k)` times the right at `(k, q)`, whatever the operands' formats. -/
theorem blockProduct_apply {φ₁ φ₂ : FTy} (l : FVec Ideal S5000x64 φ₁) (r : FVec Ideal S64x64 φ₂) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k := funext fun a => Fin.ext (by
    match a with
    | ⟨0, _⟩ => exact lhs_row _ _
    | ⟨1, _⟩ => exact (lhs_col _ _).trans hk)
  have er : dot_S5000x64_S64x64_S5000x64_1_0_0_1_n_n.rhsIdx (ix2 p q)
      ((contrEquiv1 dot_S5000x64_S64x64_S5000x64_1_0_0_1_n_n 64 rfl rfl).symm k) = ix2 k q := funext fun a => Fin.ext (by
    match a with
    | ⟨0, _⟩ => exact (rhs_row _ _).trans hk
    | ⟨1, _⟩ => exact rhs_col _ _)
  rw [el, er]

/-! ## The two broadcasts -/

/-- The per-node factors `[5000, 1]` laid out over the 64 columns, read at `(p, k)`: row `p`'s factor. -/
theorem rowFactor_apply {α : Type} (n : S5000x1.Idx → α) (p : Fin 5000) (k : Fin 64) :
    broadcastTo S5000x64 n Facts₀.broadcasts_S5000x1_S5000x64 (ix2 p k) = n (ix2 p (0 : Fin 1)) :=
  broadcastTo_apply n Facts₀.broadcasts_S5000x1_S5000x64 (ix2 p k) (ix2 p (0 : Fin 1)) (fun a => by
    match a with
    | ⟨0, _⟩ => show p.val = if (5000 : Nat) = 1 then 0 else p.val; rw [if_neg (by decide)]
    | ⟨1, _⟩ => show 0 = if (1 : Nat) = 1 then 0 else k.val; rw [if_pos rfl])

/-- The bias row `[1, 64]` repeated over the 5000 rows, read at `(p, q)`: the bias of column `q`. -/
theorem biasRow_apply {α : Type} (b : S1x64.Idx → α) (p : Fin 5000) (q : Fin 64) :
    broadcastTo S5000x64 b Facts₀.broadcasts_S1x64_S5000x64 (ix2 p q) = b (ix2 (0 : Fin 1) q) :=
  broadcastTo_apply b Facts₀.broadcasts_S1x64_S5000x64 (ix2 p q) (ix2 (0 : Fin 1) q) (fun a => by
    match a with
    | ⟨0, _⟩ => show 0 = if (1 : Nat) = 1 then 0 else p.val; rw [if_pos rfl]
    | ⟨1, _⟩ => show q.val = if (64 : Nat) = 1 then 0 else q.val; rw [if_neg (by decide)])

/-! ## What the body stores -/

/-- THE STORED BLOCK AT `(p, q)`: the scaled row `p` of the feature block against column `q` of the weights, plus the
    bias of column `q`. -/
theorem stored_apply (x : Vec Ideal S5000x64 .f32) (n : Vec Ideal S5000x1 .f32) (W : Vec Ideal S64x64 .f32)
    (b : Vec Ideal S1x64 .f32) (p : Fin 5000) (q : Fin 64) :
    k0_pay1 x n W b (ix2 p q)
      = (∑ k : Fin 64, (x (ix2 p k) * n (ix2 p (0 : Fin 1))) * W (ix2 k q)) + b (ix2 (0 : Fin 1) q) := by
  unfold k0_pay1
  rw [addf_apply, blockProduct_apply, shapeCast_self, shapeCast_self, shapeCast_self, biasRow_apply]
  refine congrArg (· + b (ix2 (0 : Fin 1) q)) (Finset.sum_congr rfl fun k _ => ?_)
  rw [truncf_apply, truncf_apply, mulf_apply, rowFactor_apply]

end Cert.KernelIdeal.Dense

end
-- ==== Proof.DenseSpec.lean ====
/-
  THE LAST LAYER AS ONE FUNCTION OF WHOLE ARRAYS.

  From propagated features `x : [100000, 64]`, per-node factors `n : [100000, 1]`, weights `W : [64, 64]` and a bias
  `b` of 64 entries, the result at node `r` and output channel `e` is
      Σ_k (x (r, k) · n (r, 0)) · W (k, e)  +  b e
  on the extended reals: node `r`'s features scaled by its factor, against column `e` of the weights, plus the bias.
  Both programs end with this function; they differ only in how `x` was computed.
-/
import Idealize.ShloMosaic.PureOps.Ideal
import Idealize.ShloMosaic.Lib.ValueIdx

noncomputable section

open scoped BigOperators

namespace Cert.Spec

open Idealize.ShloMosaic Idealize.ShloMosaic.ValueIdx

/-- The result at node `r`, channel `e`. -/
def denseEntry (x : (⟨2, ![100000, 64]⟩ : Shape).Idx → EReal) (n : (⟨2, ![100000, 1]⟩ : Shape).Idx → EReal)
    (W : (⟨2, ![64, 64]⟩ : Shape).Idx → EReal) (b : Fin 64 → EReal) (r : Fin 100000) (e : Fin 64) : EReal :=
  (∑ k : Fin 64, (x (ix2 r k) * n (ix2 r (0 : Fin 1))) * W (ix2 k e)) + b e

/-- The whole result array. -/
def denseRows (x : (⟨2, ![100000, 64]⟩ : Shape).Idx → EReal) (n : (⟨2, ![100000, 1]⟩ : Shape).Idx → EReal)
    (W : (⟨2, ![64, 64]⟩ : Shape).Idx → EReal) (b : Fin 64 → EReal) : (⟨2, ![100000, 64]⟩ : Shape).Idx → EReal :=
  fun i => denseEntry x n W b ⟨(i 0).val, idx2_lt0 i⟩ ⟨(i 1).val, idx2_lt1 i⟩

theorem denseRows_apply (x : (⟨2, ![100000, 64]⟩ : Shape).Idx → EReal) (n : (⟨2, ![100000, 1]⟩ : Shape).Idx → EReal)
    (W : (⟨2, ![64, 64]⟩ : Shape).Idx → EReal) (b : Fin 64 → EReal) (r : Fin 100000) (e : Fin 64) :
    denseRows x n W b (ix2 r e) = denseEntry x n W b r e := rfl

end Cert.Spec

end
-- ==== Proof.KernelWhole.lean ====
/-
  THE KERNEL'S RESULT ARRAY AS ONE FUNCTION OF THE ARRAYS ITS REGION FINDS.

  The region runs over 20 grid points. Point `t` is handed rows `5000 t … 5000 t + 4999` of the propagated features
  and of the per-node factors, the whole weight matrix and the whole bias row, and writes rows
  `5000 t … 5000 t + 4999` of the result. What it writes at row `p` of its block, column `q`, depends on row
  `5000 t + p` of the features and factors only, so every point's block is the restriction of ONE whole-array function,
  `Cert.Spec.denseRows` of the four arrays, to the point's rows; the 20 row blocks tile the 100000 rows, so after the run
  the result array is that function.
-/
import proofs.«133800_j90108413870524_2_alg».proof.Proof.Gen.KernelIdeal.Value
import proofs.«133800_j90108413870524_2_alg».proof.Proof.DenseBlock
import proofs.«133800_j90108413870524_2_alg».proof.Proof.DenseSpec

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 20 points: the feature and factor windows move down the rows with the result
    window, the weights and the bias stay at block (0, 0), and the result's row-block index is at most 19. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 19 :=
  (by decide +kernel : ∀ t : Fin grid0.N, _)

/-- Every row block is some point's. -/
theorem idx_onto : ∀ q0 : Fin 20, ∃ t : Fin cfg0.N, win0_4.index t = ![q0.val, 0] :=
  (by decide +kernel : ∀ q0 : Fin 20, ∃ t : Fin grid0.N, win0_4.index t = ![q0.val, 0])

/-! ## The four input blocks at a point, as entries of the arrays -/

/-- The feature block at point `t`: its entry `y` is the feature array's entry `i`, `i` being `y` moved down by the
    point's row offset. -/
theorem featBlock_apply (c : Dev nD) (t : Fin cfg0.N) (y : S5000x64.Idx) (i : S100000x64.Idx)
    (h0 : (i 0).val = win0_4.index t (0 : Fin 2) * 5000 + (y 0).val) (h1 : (i 1).val = (y 1).val) :
    (iblk m c 0 t : Vec Ideal S5000x64 .f32) y = (V m c main_v40 : S100000x64.Idx → EReal) i := by
  obtain ⟨e0, e1, -⟩ := idx_facts t
  unfold iblk
  rw [View.read_apply, cast_eq]
  refine congrArg (V m c main_v40) (funext fun a => Fin.ext ?_)
  match a with
  | ⟨0, _⟩ => show win0_0.index t (0 : Fin 2) * 5000 + 1 * (y 0).val = (i 0).val; omega
  | ⟨1, _⟩ => show win0_0.index t (1 : Fin 2) * 64 + 1 * (y 1).val = (i 1).val; omega

/-- The factor block at point `t`, likewise. -/
theorem factorBlock_apply (c : Dev nD) (t : Fin cfg0.N) (y : S5000x1.Idx) (i : S100000x1.Idx)
    (h0 : (i 0).val = win0_4.index t (0 : Fin 2) * 5000 + (y 0).val) (h1 : (i 1).val = (y 1).val) :
    (iblk m c 1 t : Vec Ideal S5000x1 .f32) y = (V m c main_v8 : S100000x1.Idx → EReal) i := by
  obtain ⟨-, -, e0, e1, -⟩ := idx_facts t
  unfold iblk
  rw [View.read_apply, cast_eq]
  refine congrArg (V m c main_v8) (funext fun a => Fin.ext ?_)
  match a with
  | ⟨0, _⟩ => show win0_1.index t (0 : Fin 2) * 5000 + 1 * (y 0).val = (i 0).val; omega
  | ⟨1, _⟩ => show win0_1.index t (1 : Fin 2) * 1 + 1 * (y 1).val = (i 1).val; omega

/-- The weight block at any point is the whole weight matrix. -/
theorem weightBlock_apply (c : Dev nD) (t : Fin cfg0.N) (y : S64x64.Idx) :
    (iblk m c 2 t : Vec Ideal S64x64 .f32) y = (V m c main_arg3 : S64x64.Idx → EReal) y := by
  obtain ⟨-, -, -, -, e0, e1, -⟩ := idx_facts t
  unfold iblk
  rw [View.read_apply, cast_eq]
  refine congrArg (V m c main_arg3) (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The bias block at any point is the whole bias row. -/
theorem biasBlock_apply (c : Dev nD) (t : Fin cfg0.N) (y : S1x64.Idx) :
    (iblk m c 3 t : Vec Ideal S1x64 .f32) y = (V m c main_v41 : S1x64.Idx → EReal) y := by
  obtain ⟨-, -, -, -, -, -, e0, e1, -⟩ := idx_facts t
  unfold iblk
  rw [View.read_apply, cast_eq]
  refine congrArg (V m c main_v41) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-! ## The whole-array function, and each point's block of it -/

/-- The result array: the last layer of the four arrays as the region finds them. -/
def result (c : Dev nD) : S100000x64.Idx → EReal :=
  Cert.Spec.denseRows (V m c main_v40 : S100000x64.Idx → EReal) (V m c main_v8 : S100000x1.Idx → EReal)
    (V m c main_arg3 : S64x64.Idx → EReal) (fun q => (V m c main_v41 : S1x64.Idx → EReal) (ix2 (0 : Fin 1) q))

/-- What the body stores at entry `y` of point `t`'s block is the result function at `y` moved down by the point's
    row offset. -/
theorem stored_eq (c : Dev nD) (t : Fin cfg0.N) (y : S5000x64.Idx) (i : S100000x64.Idx)
    (h0 : (i 0).val = win0_4.index t (0 : Fin 2) * 5000 + (y 0).val) (h1 : (i 1).val = (y 1).val) :
    k0_pay1 (iblk m c 0 t) (iblk m c 1 t) (iblk m c 2 t) (iblk m c 3 t) y = result m c i := by
  obtain ⟨p, q, rfl⟩ : ∃ (p : Fin 5000) (q : Fin 64), y = ix2 p q := ⟨y 0, y 1, eq_ix2 y⟩
  obtain ⟨r, e, rfl⟩ : ∃ (r : Fin 100000) (e : Fin 64), i = ix2 r e := ⟨i 0, i 1, eq_ix2 i⟩
  obtain rfl : e = q := Fin.ext h1
  refine (Cert.KernelIdeal.Dense.stored_apply (iblk m c 0 t) (iblk m c 1 t) (iblk m c 2 t) (iblk m c 3 t) p e).trans ?_
  unfold result
  rw [Cert.Spec.denseRows_apply]
  unfold Cert.Spec.denseEntry
  refine congrArg₂ (· + ·) (Finset.sum_congr rfl fun k _ => ?_) (biasBlock_apply m c t (ix2 (0 : Fin 1) e))
  rw [featBlock_apply m c t (ix2 p k) (ix2 r k) h0 rfl, factorBlock_apply m c t (ix2 p (0 : Fin 1)) (ix2 r (0 : Fin 1)) h0 rfl,
    weightBlock_apply m c t (ix2 k e)]

/-- WHAT POINT `t` WRITES BACK is its block of the result function. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero hz]
  simp only [View.ld_unit_zero (S := S5000x64) hz, View.ld_unit_zero (S := S5000x1) hz, View.ld_unit_zero (S := S64x64) hz,
    View.ld_unit_zero (S := S1x64) hz]
  obtain ⟨-, -, -, -, -, -, -, -, e1, -⟩ := idx_facts t
  funext j
  rw [View.read_apply, cast_eq]
  refine stored_eq m c t ((win0 4).xinj (grid0.coords t) j) _ ?_ ?_
  · show win0_4.index t (0 : Fin 2) * 5000 + 1 * (j 0).val = win0_4.index t (0 : Fin 2) * 5000 + (j 0).val
    omega
  · show win0_4.index t (1 : Fin 2) * 64 + 1 * (j 1).val = (j 1).val
    omega

/-! ## The blocks tile the array -/

/-- An index of the result array is in point `t`'s block iff each coordinate is in the block's range on its axis. -/
theorem mem_blk (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v42).slice (win0_4.rect t)).set ↔ _
  rw [View.set_slice_whole, Rect.mem_set_unit]
  exact Iff.rfl

/-- Row `r` is in the block of the point whose row-block index is `r / 5000`. -/
theorem cover (i : S100000x64.Idx) :
    ∃ t : Fin cfg0.N, (cfg0.win 4).flush t = true ∧ i ∈ ((cfg0.win 4).blk t).view.set := by
  have hi0 : (i 0).val < 100000 := (i 0).isLt
  have hi1 : (i 1).val < 64 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- THE RESULT ARRAY after the run is the result function. -/
theorem final (c : Dev nD) : (dats m 0 c).arrAt 4 cfg0.N = result m c :=
  (dats m 0 c).arrAt_eq_of_cover 4 (result m c) (fun t _ => flushed_eq m c t) cover

/-- The run, read: the result array at the result function, the arguments unchanged. -/
theorem run : θ_run defs (onTc (τ := τ) (main (F := Ideal))) ⟨m, fun _ => 0, ρ⟩ fun r => ∀ c : Dev nD,
      r.2.mem ((c : Thread nD τ).loc main_v42) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Whole

end
-- ==== Proof.KernelPrefix.lean ====
/-
  WHAT THE KERNEL'S REGION FINDS: the arrays its host operations computed.

  Before the region the host computes, from the node features `a0`, the edge sources `a1` and the edge targets `a2`:
    * `norm a2`: per node, (max(in-degree, 1))^(-1/2), as a column — the in-degree by adding a one onto each edge's
      target;
    * `srcWords a1`: the edge sources as start words, a negative word wrapped once by the node count;
    * `normSrc`: per edge, the factor of its source node;
    * `hop1`: per edge the source node's features times the source's factor, added onto the edge's target;
    * `hop2`: per edge the source node's `hop1` row times the SQUARE of the source's factor, added onto the edge's target;
    * `biasRow a4`: the bias laid out as a row.
  The region's windows read `hop2` (features), `norm` (factors), the weights as launched and `biasRow`.
-/
import proofs.«133800_j90108413870524_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- Per node, (max(in-degree, 1))^(-1/2), as a column. -/
def norm (a2 : (⟨S1000000, .i32⟩ : BufTy).Contents (Elt F)) : (⟨S100000x1, .f32⟩ : BufTy).Contents (Elt F) :=
  broadcastInDim S100000x1 ![0] Facts₀.bcast_S100000_S100000x1_0
    (Host.powf
      (maximumf
        (Host.scatterAdd scatter_S100000_S1000000x1_S1000000_n_0_0_1
          (broadcastInDim S100000 ![] Facts₀.bcast_S_S100000 (constant S_ .f32 0x00000000#32))
          (broadcastInDim S1000000x1 ![0] Facts₀.bcast_S1000000_S1000000x1_0 a2)
          (broadcastInDim S1000000 ![] Facts₀.bcast_S_S1000000 (constant S_ .f32 0x3F800000#32)))
        (broadcastInDim S100000 ![] Facts₀.bcast_S_S100000 (constant S_ .f32 0x3F800000#32)))
      (broadcastInDim S100000 ![] Facts₀.bcast_S_S100000 (constant S_ .f32 0xBF000000#32)))

/-- The edge sources as a column of start words, a negative word wrapped once by the node count. -/
def srcWords (a1 : (⟨S1000000, .i32⟩ : BufTy).Contents (Elt F)) : (⟨S1000000x1, .i32⟩ : BufTy).Contents (Elt F) :=
  broadcastInDim S1000000x1 ![0] Facts₀.bcast_S1000000_S1000000x1_0
    (select (cmpi .slt a1 (broadcastInDim S1000000 ![] Facts₀.bcast_S_S1000000 (constantI S_ 32 0#32)))
      (addi a1 (broadcastInDim S1000000 ![] Facts₀.bcast_S_S1000000 (constantI S_ 32 100000#32))) a1)

/-- The edge targets as a column of start words. -/
def dstWords (a2 : (⟨S1000000, .i32⟩ : BufTy).Contents (Elt F)) : (⟨S1000000x1, .i32⟩ : BufTy).Contents (Elt F) :=
  broadcastInDim S1000000x1 ![0] Facts₀.bcast_S1000000_S1000000x1_0 a2

/-- The zero array the edge sums start from. -/
def zeros : (⟨S100000x64, .f32⟩ : BufTy).Contents (Elt F) :=
  broadcastInDim S100000x64 ![] Facts₀.bcast_S_S100000x64 (constant S_ .f32 0x00000000#32)

/-- Per edge, the factor of its source node. -/
def normSrc (a1 a2 : (⟨S1000000, .i32⟩ : BufTy).Contents (Elt F)) : (⟨S1000000x1, .f32⟩ : BufTy).Contents (Elt F) :=
  Host.gather gather_S100000x1_S1000000x1_S1000000x1_1_0_n_n_0_1_11 (norm (F := F) a2) (srcWords (F := F) a1)

/-- What the edges carry in the first hop: the source node's features times the source's factor. -/
def edges1 (a0 : (⟨S100000x64, .f32⟩ : BufTy).Contents (Elt F)) (a1 a2 : (⟨S1000000, .i32⟩ : BufTy).Contents (Elt F)) :
    (⟨S1000000x64, .f32⟩ : BufTy).Contents (Elt F) :=
  mulf (Host.gather gather_S100000x64_S1000000x1_S1000000x64_1_0_n_n_0_1_164 a0 (srcWords (F := F) a1))
    (broadcastInDim S1000000x64 ![0, 1] Facts₀.bcast_S1000000x1_S1000000x64_0_1 (normSrc (F := F) a1 a2))

/-- The first hop: what the edges carry, added onto each edge's target. -/
def hop1 (a0 : (⟨S100000x64, .f32⟩ : BufTy).Contents (Elt F)) (a1 a2 : (⟨S1000000, .i32⟩ : BufTy).Contents (Elt F)) :
    (⟨S100000x64, .f32⟩ : BufTy).Contents (Elt F) :=
  Host.scatterAdd scatter_S100000x64_S1000000x1_S1000000x64_1_0_0_1 (zeros (F := F)) (dstWords (F := F) a2) (edges1 (F := F) a0 a1 a2)

/-- What the edges carry in the second hop: the source node's first-hop row times the square of the source's factor. -/
def edges2 (a0 : (⟨S100000x64, .f32⟩ : BufTy).Contents (Elt F)) (a1 a2 : (⟨S1000000, .i32⟩ : BufTy).Contents (Elt F)) :
    (⟨S1000000x64, .f32⟩ : BufTy).Contents (Elt F) :=
  mulf (Host.gather gather_S100000x64_S1000000x1_S1000000x64_1_0_n_n_0_1_164 (hop1 (F := F) a0 a1 a2) (srcWords (F := F) a1))
    (broadcastInDim S1000000x64 ![0, 1] Facts₀.bcast_S1000000x1_S1000000x64_0_1
      (mulf (normSrc (F := F) a1 a2) (normSrc (F := F) a1 a2)))

/-- The second hop. -/
def hop2 (a0 : (⟨S100000x64, .f32⟩ : BufTy).Contents (Elt F)) (a1 a2 : (⟨S1000000, .i32⟩ : BufTy).Contents (Elt F)) :
    (⟨S100000x64, .f32⟩ : BufTy).Contents (Elt F) :=
  Host.scatterAdd scatter_S100000x64_S1000000x1_S1000000x64_1_0_0_1 (zeros (F := F)) (dstWords (F := F) a2) (edges2 (F := F) a0 a1 a2)

/-- The bias laid out as a row. -/
def biasRow (a4 : (⟨S64, .f32⟩ : BufTy).Contents (Elt F)) : (⟨S1x64, .f32⟩ : BufTy).Contents (Elt F) :=
  shapeCast S1x64 a4 Facts₀.shapeCasts_S64_S1x64

/-- The bias row at `(0, q)` is the bias at `q`. -/
theorem biasRow_apply (a4 : (⟨S64, .f32⟩ : BufTy).Contents (Elt F)) (q : Fin 64) :
    biasRow (F := F) a4 (ix2 (0 : Fin 1) q) = a4 (ix1 q) := by
  unfold biasRow
  refine shapeCast_apply a4 Facts₀.shapeCasts_S64_S1x64 (ix2 (0 : Fin 1) q) (ix1 q) ?_
  rw [Shape.rowMajor_val_one, Shape.rowMajor_val_two]
  show q.val = 0 * 64 + q.val
  omega

/-! ## The arrays as the region finds them -/

variable (m : (ℓ : Loc nD τ sig) → Buf (Elt Ideal) ℓ)

set_option maxRecDepth 8192 in
set_option maxHeartbeats 2000000 in
/-- The factor window's array. -/
theorem V_norm (c : Dev nD) :
    (V m c main_v8 : S100000x1.Idx → EReal) = norm (F := Ideal) (m ((c.tc : Thread nD τ).loc main_arg2)) := by
  dsimp only [V, hostOps0]
  after_results_simp
  rfl

set_option maxRecDepth 8192 in
set_option maxHeartbeats 2000000 in
/-- The feature window's array. -/
theorem V_hop2 (c : Dev nD) :
    (V m c main_v40 : S100000x64.Idx → EReal)
      = hop2 (F := Ideal) (m ((c.tc : Thread nD τ).loc main_arg0)) (m ((c.tc : Thread nD τ).loc main_arg1)) (m ((c.tc : Thread nD τ).loc main_arg2)) := by
  dsimp only [V, hostOps0]
  after_results_simp
  rfl

set_option maxRecDepth 8192 in
set_option maxHeartbeats 2000000 in
/-- The bias window's array. -/
theorem V_biasRow (c : Dev nD) :
    (V m c main_v41 : S1x64.Idx → EReal) = biasRow (F := Ideal) (m ((c.tc : Thread nD τ).loc main_arg4)) := by
  dsimp only [V, hostOps0]
  after_results_simp
  rfl

end Cert.KernelIdeal.Prefix

end
-- ==== Proof.LibScatterGather.lean ====
/-
  THE HOST'S ACCUMULATING SCATTER AND ITS ROW GATHER, READ AT ONE INDEX, for every size of the arrays.

  Two index patterns, each for a matrix of rows and for a flat array:

  * SCATTER-ADD OF ROWS. An operand `x : [N, C]`, a column of start words `idx : [M, 1]` and updates `upd : [M, C]`;
    update row `e` is added onto operand row `idx[e, 0]`, the word read as a SIGNED integer and NOT clamped: a start
    outside `[0, N)` drops the row. At the extended reals the result at `(v, f)` is therefore
        x (v, f) + Σ_{e : idx[e,0] = v} upd (e, f),
    the sum over exactly those `e` whose start word, read signed, is `v` (`scatterAdd_rows_apply`). The flat form, an
    operand `[N]` with updates `[M]`, is the same statement without the column coordinate (`scatterAdd_flat_apply`).
  * GATHER OF ROWS. An operand `x : [N, C]` and the same column of start words; result row `e` is operand row
    `idx[e, 0]`, the word read signed and CLAMPED into `[0, N − 1]` (`gather_rows_apply`); the flat form reads one
    element (`gather_flat_apply`).

  The proofs evaluate the dimension numbers' coordinate maps — which operand axis reads which update or result axis —
  once, for symbolic sizes: only the ranks, which are literals, decide them. For the scatter the set of update indices
  landing on `(v, f)` is then `{(e, f) | idx[e,0] = v}`, and the sum over it is re-indexed along `e ↦ (e, f)`.
-/
import Idealize.ShloMosaic.PureOps.Ideal
import Idealize.ShloMosaic.Lib.ValueIdx

noncomputable section

open scoped BigOperators

namespace Cert.Lib.ScatterGather

open Idealize.ShloMosaic Idealize.ShloMosaic.ValueIdx

/-! ## Scatter-add of rows: operand `[N, C]`, start words `[M, 1]`, updates `[M, C]` -/

/-- The dimension numbers of a row scatter: update axis 1 is the window axis and goes to operand axis 1; operand axis 0
    is inserted and receives the start index, whose single component is read along axis 1 of the start words. Their
    conditions `wf` are decided on literal sizes. -/
abbrev rowScatterDims (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section Rows
variable {N M C w : Nat} (wf : ScatterDims.WF ⟨2, ![N, C]⟩ ⟨2, ![M, 1]⟩ ⟨2, ![M, C]⟩ [1] [0] [0] 1)

/-- On operand axis 0 the window of update `(e, g)` starts at the start word of row `e`, read signed. -/
theorem rows_start0 (idx : IVec ⟨2, ![M, 1]⟩ w) (e : Fin M) (g : Fin C) :
    (rowScatterDims N M C wf).start (ix2 e g) idx 0 = (idx (ix2 e (0 : Fin 1))).toInt := by
  unfold ScatterDims.start
  rw [dif_pos (show (0 : Fin 2) ∈ (rowScatterDims N M C wf).scatterDimsToOperandDims from List.mem_singleton.mpr rfl)]
  have hsi : (rowScatterDims N M C wf).siIdx (ix2 e g) ⟨List.idxOf (0 : Fin 2) (rowScatterDims N M C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the start index does not name, every window starts at `0`. -/
theorem rows_start1 (idx : IVec ⟨2, ![M, 1]⟩ w) (j : (⟨2, ![M, C]⟩ : Shape).Idx) :
    (rowScatterDims N M C wf).start j idx 1 = 0 := rfl

/-- Operand axis 0 is inserted: the window coordinate there is `0`. -/
theorem rows_window0 (j : (⟨2, ![M, C]⟩ : Shape).Idx) : (rowScatterDims N M C wf).window j 0 = 0 := rfl

/-- On operand axis 1 the window coordinate is the update's column. -/
theorem rows_window1 (j : (⟨2, ![M, C]⟩ : Shape).Idx) : (rowScatterDims N M C wf).window j 1 = (j 1).val := rfl

/-- WHERE AN UPDATE LANDS: update `(e, g)` lands on `(v, f)` exactly when the start word of row `e`, read signed, is `v`
    and `g = f`; a start word outside `[0, N)` lands nowhere. -/
theorem rows_resultIdx?_eq_some_iff (idx : IVec ⟨2, ![M, 1]⟩ w) (e : Fin M) (g : Fin C) (v : Fin N) (f : Fin C) :
    (rowScatterDims N M C wf).resultIdx? (ix2 e g) idx = some (ix2 v f)
      ↔ (idx (ix2 e (0 : Fin 1))).toInt = (v.val : ℤ) ∧ g = f := by
  have hs0 := rows_start0 wf idx e g
  have hs1 := rows_start1 wf idx (ix2 e g)
  have hw0 := rows_window0 wf (ix2 e g)
  have hw1 := rows_window1 wf (ix2 e g)
  have hg : ((ix2 e g : (⟨2, ![M, C]⟩ : Shape).Idx) 1).val = g.val := rfl
  have hvN : v.val < N := v.isLt
  have hgC : g.val < C := g.isLt
  have hsz0 : (⟨2, ![N, C]⟩ : Shape).size 0 = N := rfl
  have hsz1 : (⟨2, ![N, C]⟩ : Shape).size 1 = C := rfl
  unfold ScatterDims.resultIdx?
  split
  · rename_i h
    rw [Option.some.injEq]
    constructor
    · intro hfun
      have h0 := congrArg Fin.val (congrFun hfun 0)
      have h1 := congrArg Fin.val (congrFun hfun 1)
      have hv0 : ((ix2 v f : (⟨2, ![N, C]⟩ : Shape).Idx) 0).val = v.val := rfl
      have hf1 : ((ix2 v f : (⟨2, ![N, C]⟩ : Shape).Idx) 1).val = f.val := rfl
      simp only [hs0, hs1, hw0, hw1, hg, hv0, hf1] at h0 h1
      have hh := (h 0).1
      simp only [hs0, hw0] at hh
      refine ⟨by omega, Fin.ext (by omega)⟩
    · rintro ⟨ht, rfl⟩
      funext a
      refine Fin.ext ?_
      match a with
      | ⟨0, _⟩ =>
        show ((rowScatterDims N M C wf).start (ix2 e g) idx 0 + ((rowScatterDims N M C wf).window (ix2 e g) 0 : ℕ)).toNat = v.val
        rw [hs0, hw0, ht]; simp
      | ⟨1, _⟩ =>
        show ((rowScatterDims N M C wf).start (ix2 e g) idx 1 + ((rowScatterDims N M C wf).window (ix2 e g) 1 : ℕ)).toNat = g.val
        rw [hs1, hw1, hg]; simp
  · rename_i h
    constructor
    · intro hc; exact absurd hc (by simp)
    · rintro ⟨ht, rfl⟩
      exfalso; apply h
      intro a
      match a with
      | ⟨0, _⟩ =>
        show 0 ≤ (rowScatterDims N M C wf).start (ix2 e g) idx 0 + ((rowScatterDims N M C wf).window (ix2 e g) 0 : ℕ) ∧
          (rowScatterDims N M C wf).start (ix2 e g) idx 0 + ((rowScatterDims N M C wf).window (ix2 e g) 0 : ℕ) < ((⟨2, ![N, C]⟩ : Shape).size 0 : ℕ)
        rw [hs0, hw0, ht, hsz0]; omega
      | ⟨1, _⟩ =>
        show 0 ≤ (rowScatterDims N M C wf).start (ix2 e g) idx 1 + ((rowScatterDims N M C wf).window (ix2 e g) 1 : ℕ) ∧
          (rowScatterDims N M C wf).start (ix2 e g) idx 1 + ((rowScatterDims N M C wf).window (ix2 e g) 1 : ℕ) < ((⟨2, ![N, C]⟩ : Shape).size 1 : ℕ)
        rw [hs1, hw1, hg, hsz1]; omega

/-- THE ROW SCATTER-ADD READ AT `(v, f)`: the operand there plus the sum of `upd (e, f)` over the rows `e` whose start
    word, read signed, is `v`. -/
theorem scatterAdd_rows_apply {φ : FTy} (x : FVec Ideal ⟨2, ![N, C]⟩ φ) (idx : IVec ⟨2, ![M, 1]⟩ w)
    (upd : FVec Ideal ⟨2, ![M, C]⟩ φ) (v : Fin N) (f : Fin C) :
    Host.scatterAdd (rowScatterDims N M C wf) x idx upd (ix2 v f)
      = x (ix2 v f) + ∑ e ∈ Finset.univ.filter (fun e : Fin M => (idx (ix2 e (0 : Fin 1))).toInt = (v.val : ℤ)),
          upd (ix2 e f) := by
  show x (ix2 v f) + ∑ j ∈ Finset.univ.filter (fun j => (rowScatterDims N M C wf).resultIdx? j idx = some (ix2 v f)), upd j = _
  congr 1
  refine Finset.sum_nbij' (fun j => j 0) (fun e => ix2 e f) ?_ ?_ ?_ ?_ ?_
  · intro j hj
    obtain ⟨e, g, rfl⟩ : ∃ e g, j = ix2 e g := ⟨j 0, j 1, eq_ix2 j⟩
    rw [Finset.mem_filter] at hj
    show e ∈ _
    exact Finset.mem_filter.2 ⟨Finset.mem_univ _, ((rows_resultIdx?_eq_some_iff wf idx e g v f).1 hj.2).1⟩
  · intro e he
    rw [Finset.mem_filter] at he ⊢
    exact ⟨Finset.mem_univ _, (rows_resultIdx?_eq_some_iff wf idx e f v f).2 ⟨he.2, rfl⟩⟩
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl
  · intro e _
    rfl
  · intro j hj
    obtain ⟨e, g, rfl⟩ : ∃ e g, j = ix2 e g := ⟨j 0, j 1, eq_ix2 j⟩
    rw [Finset.mem_filter] at hj
    obtain ⟨-, rfl⟩ := (rows_resultIdx?_eq_some_iff wf idx e g v f).1 hj.2
    rfl

end Rows

/-! ## Scatter-add into a flat array: operand `[N]`, start words `[M, 1]`, updates `[M]` -/

/-- The dimension numbers of a flat scatter: no window axis; operand axis 0 is inserted and receives the start index,
    whose single component is read along axis 1 of the start words. -/
abbrev flatScatterDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section Flat
variable {N M w : Nat} (wf : ScatterDims.WF ⟨1, ![N]⟩ ⟨2, ![M, 1]⟩ ⟨1, ![M]⟩ [] [0] [0] 1)

/-- The window of update `e` starts at the start word of row `e`, read signed. -/
theorem flat_start0 (idx : IVec ⟨2, ![M, 1]⟩ w) (e : Fin M) :
    (flatScatterDims N M wf).start (ix1 e) idx 0 = (idx (ix2 e (0 : Fin 1))).toInt := by
  unfold ScatterDims.start
  rw [dif_pos (show (0 : Fin 1) ∈ (flatScatterDims N M wf).scatterDimsToOperandDims from List.mem_singleton.mpr rfl)]
  have hsi : (flatScatterDims N M wf).siIdx (ix1 e) ⟨List.idxOf (0 : Fin 1) (flatScatterDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is inserted: the window coordinate is `0`. -/
theorem flat_window0 (j : (⟨1, ![M]⟩ : Shape).Idx) : (flatScatterDims N M wf).window j 0 = 0 := rfl

/-- WHERE AN UPDATE LANDS: update `e` lands on `v` exactly when the start word of row `e`, read signed, is `v`. -/
theorem flat_resultIdx?_eq_some_iff (idx : IVec ⟨2, ![M, 1]⟩ w) (e : Fin M) (v : Fin N) :
    (flatScatterDims N M wf).resultIdx? (ix1 e) idx = some (ix1 v)
      ↔ (idx (ix2 e (0 : Fin 1))).toInt = (v.val : ℤ) := by
  have hs0 := flat_start0 wf idx e
  have hw0 := flat_window0 wf (ix1 e)
  have hvN : v.val < N := v.isLt
  have hsz0 : (⟨1, ![N]⟩ : Shape).size 0 = N := rfl
  unfold ScatterDims.resultIdx?
  split
  · rename_i h
    rw [Option.some.injEq]
    constructor
    · intro hfun
      have h0 := congrArg Fin.val (congrFun hfun 0)
      have hv0 : ((ix1 v : (⟨1, ![N]⟩ : Shape).Idx) 0).val = v.val := rfl
      simp only [hs0, hw0, hv0] at h0
      have hh := (h 0).1
      simp only [hs0, hw0] at hh
      omega
    · intro ht
      funext a
      refine Fin.ext ?_
      match a with
      | ⟨0, _⟩ =>
        show ((flatScatterDims N M wf).start (ix1 e) idx 0 + ((flatScatterDims N M wf).window (ix1 e) 0 : ℕ)).toNat = v.val
        rw [hs0, hw0, ht]; simp
  · rename_i h
    constructor
    · intro hc; exact absurd hc (by simp)
    · intro ht
      exfalso; apply h
      intro a
      match a with
      | ⟨0, _⟩ =>
        show 0 ≤ (flatScatterDims N M wf).start (ix1 e) idx 0 + ((flatScatterDims N M wf).window (ix1 e) 0 : ℕ) ∧
          (flatScatterDims N M wf).start (ix1 e) idx 0 + ((flatScatterDims N M wf).window (ix1 e) 0 : ℕ) < ((⟨1, ![N]⟩ : Shape).size 0 : ℕ)
        rw [hs0, hw0, ht, hsz0]; omega

/-- THE FLAT SCATTER-ADD READ AT `v`: the operand there plus the sum of `upd e` over the `e` whose start word, read
    signed, is `v`. -/
theorem scatterAdd_flat_apply {φ : FTy} (x : FVec Ideal ⟨1, ![N]⟩ φ) (idx : IVec ⟨2, ![M, 1]⟩ w)
    (upd : FVec Ideal ⟨1, ![M]⟩ φ) (v : Fin N) :
    Host.scatterAdd (flatScatterDims N M wf) x idx upd (ix1 v)
      = x (ix1 v) + ∑ e ∈ Finset.univ.filter (fun e : Fin M => (idx (ix2 e (0 : Fin 1))).toInt = (v.val : ℤ)),
          upd (ix1 e) := by
  show x (ix1 v) + ∑ j ∈ Finset.univ.filter (fun j => (flatScatterDims N M wf).resultIdx? j idx = some (ix1 v)), upd j = _
  congr 1
  refine Finset.sum_nbij' (fun j => j 0) (fun e => ix1 e) ?_ ?_ ?_ ?_ ?_
  · intro j hj
    obtain ⟨e, rfl⟩ : ∃ e, j = ix1 e := ⟨j 0, eq_ix1 j⟩
    rw [Finset.mem_filter] at hj
    show e ∈ _
    exact Finset.mem_filter.2 ⟨Finset.mem_univ _, (flat_resultIdx?_eq_some_iff wf idx e v).1 hj.2⟩
  · intro e he
    rw [Finset.mem_filter] at he ⊢
    exact ⟨Finset.mem_univ _, (flat_resultIdx?_eq_some_iff wf idx e v).2 he.2⟩
  · intro j _
    exact (eq_ix1 j).symm
  · intro e _
    rfl
  · intro j _
    exact congrArg upd (eq_ix1 j)

end Flat

/-! ## Gather of rows: operand `[N, C]`, start words `[M, 1]`, result `[M, C]` -/

/-- The dimension numbers of a row gather: result axis 1 is the offset axis and reads operand axis 1 over its whole
    width `C`; operand axis 0 is collapsed (a slice of one row) and receives the start index, whose single component is
    read along axis 1 of the start words. Their conditions `wf` are decided on literal sizes. -/
abbrev rowGatherDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at column `f` of the row named by the start word of row `e`, read
    signed and clamped into `[0, N − 1]`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (f : Fin C) :
    Host.gather (rowGatherDims N M C wf) x idx (ix2 e f)
      = x (ix2 (⟨min (idx (ix2 e (0 : Fin 1))).toInt.toNat (N - 1), by omega⟩ : Fin N) f) := by
  unfold Host.gather
  congr 1
  funext a
  refine Fin.ext ?_
  match a with
  | ⟨0, _⟩ =>
    show (rowGatherDims N M C wf).start (ix2 e f) idx 0 + (rowGatherDims N M C wf).batchCoord (ix2 e f) 0
      + (rowGatherDims N M C wf).offCoord (ix2 e f) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e f) ⟨List.idxOf (0 : Fin 2) (rowGatherDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N M C wf).start (ix2 e f) idx 1 + (rowGatherDims N M C wf).batchCoord (ix2 e f) 1
      + (rowGatherDims N M C wf).offCoord (ix2 e f) 1 = f.val
    rw [GatherDims.batchCoord_eq_zero _ _ _ List.not_mem_nil]
    have hst : (rowGatherDims N M C wf).start (ix2 e f) idx 1 = 0 := rfl
    have hoff : (rowGatherDims N M C wf).offCoord (ix2 e f) 1 = f.val := rfl
    rw [hst, hoff]; simp

/-! ## Gather from a flat array: operand `[N]`, start words `[M, 1]`, result `[M]` -/

/-- The dimension numbers of a flat gather: no offset axis; the one operand axis is collapsed and receives the start
    index, whose single component is read along axis 1 of the start words. -/
abbrev flatGatherDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start word of row `e`, read signed and clamped into `[0, N − 1]`. -/
theorem gather_flat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A record written out at literal sizes is the generic one -/

/-- At literal sizes the dimension numbers written out field by field, their conditions decided, are the generic record:
    the two agree field for field, and the conditions are a proposition. -/
example :
    ({ updateWindowDims := [1], insertedWindowDims := [0], scatterDimsToOperandDims := [0], indexVectorDim := 1,
       wf := by decide } : ScatterDims ⟨2, ![50000, 64]⟩ ⟨2, ![850000, 1]⟩ ⟨2, ![850000, 64]⟩)
      = rowScatterDims 50000 850000 64 (by decide) := rfl

/-- Likewise for a gather's. -/
example :
    ({ offsetDims := [1], collapsedSliceDims := [0], operandBatchingDims := [], startIndicesBatchingDims := [],
       startIndexMap := [0], indexVectorDim := 1, sliceSizes := ![1, 64],
       wf := by decide } : GatherDims ⟨2, ![50000, 64]⟩ ⟨2, ![800000, 1]⟩ ⟨2, ![800000, 64]⟩)
      = rowGatherDims 50000 800000 64 (by decide) := rfl

end Cert.Lib.ScatterGather

end
-- ==== Proof.LibGatherScale.lean ====
/-
  A ROW GATHER COMMUTES WITH A PER-ROW SCALE, for every size of the arrays.

  An operand `x : [N, C]`, a column of per-row factors `n : [N, 1]` and a column of start words `idx : [M, 1]`.
  The host's row gather (result row `e` is operand row `idx[e, 0]`, the word read signed and clamped into
  `[0, N − 1]`) reads ONE operand row per result row, the same row whatever the operand's width. So gathering the
  rows of `x` scaled row by row,
      (x · n)[idx],
  is gathering the rows of `x` and the entries of `n` separately and multiplying afterwards,
      x[idx] · n[idx]
  (`gather_scaled_rows`): entry `(e, f)` of either is `x (r, f) · n (r, 0)` at the one clamped row `r` of `e`.
  Scaling twice before the gather is scaling once afterwards by the square of the gathered factor
  (`gather_twice_scaled_rows`): `(x (r, f) · n (r, 0)) · n (r, 0) = x (r, f) · (n (r, 0) · n (r, 0))`, associativity of the
  product of extended reals, which holds at the infinities too; no entry has to be finite.

  The per-row factor is laid out over the columns by a broadcast along axis 1 (`colBroadcast_apply`).
-/
import Idealize.ShloMosaic.PureOps.Ideal
import Idealize.ShloMosaic.Lib.ValueIdx
import Idealize.ShloMosaic.Lib.Pipeline.Value
import proofs.«133800_j90108413870524_2_alg».proof.Proof.LibScatterGather

noncomputable section

namespace Cert.Lib.GatherScale

open Idealize.ShloMosaic Idealize.ShloMosaic.ValueIdx Cert.Lib.ScatterGather

/-- A column `[A, 1]` laid out over `B` columns (a broadcast that keeps both axes in place), read at `(p, q)`: the
    column's entry of row `p`. -/
theorem colBroadcast_apply {α : Type} {A B : Nat}
    (h : (⟨2, ![A, 1]⟩ : Shape).BroadcastsInDim ⟨2, ![A, B]⟩ (![0, 1] : Fin 2 → Fin 2))
    (n : (⟨2, ![A, 1]⟩ : Shape).Idx → α) (p : Fin A) (q : Fin B) :
    broadcastInDim ⟨2, ![A, B]⟩ ![0, 1] h n (ix2 p q) = n (ix2 p (0 : Fin 1)) := by
  refine broadcastInDim_apply _ h n (ix2 p q) (ix2 p (0 : Fin 1)) (fun a => ?_)
  match a with
  | ⟨0, _⟩ =>
    show p.val = if A = 1 then 0 else p.val
    split
    · have := p.isLt; omega
    · rfl
  | ⟨1, _⟩ =>
    show 0 = if (1 : Nat) = 1 then 0 else q.val
    rw [if_pos rfl]

section
variable {N M C w : Nat} {φ : FTy}
  (wfC : GatherDims.WF ⟨2, ![N, C]⟩ ⟨2, ![M, 1]⟩ ⟨2, ![M, C]⟩ [1] [0] [] [0] [] 1 ![1, C])
  (wf1 : GatherDims.WF ⟨2, ![N, 1]⟩ ⟨2, ![M, 1]⟩ ⟨2, ![M, 1]⟩ [1] [0] [] [0] [] 1 ![1, 1])
  (hbM : (⟨2, ![M, 1]⟩ : Shape).BroadcastsInDim ⟨2, ![M, C]⟩ (![0, 1] : Fin 2 → Fin 2))

/-- GATHERING SCALED ROWS: the rows of `x · n` named by `idx` are the rows of `x` named by `idx`, each times the
    entry of `n` named by the same start word. -/
theorem gather_scaled_rows (hN : 0 < N)
    (hbN : (⟨2, ![N, 1]⟩ : Shape).BroadcastsInDim ⟨2, ![N, C]⟩ (![0, 1] : Fin 2 → Fin 2))
    (x : FVec Ideal ⟨2, ![N, C]⟩ φ) (n : FVec Ideal ⟨2, ![N, 1]⟩ φ) (idx : IVec ⟨2, ![M, 1]⟩ w) :
    Host.gather (rowGatherDims N M C wfC) (mulf x (broadcastInDim ⟨2, ![N, C]⟩ ![0, 1] hbN n)) idx
      = mulf (Host.gather (rowGatherDims N M C wfC) x idx)
          (broadcastInDim ⟨2, ![M, C]⟩ ![0, 1] hbM (Host.gather (rowGatherDims N M 1 wf1) n idx)) := by
  funext j
  obtain ⟨e, f, rfl⟩ : ∃ (e : Fin M) (f : Fin C), j = ix2 e f := ⟨j 0, j 1, eq_ix2 j⟩
  rw [gather_rows_apply hN wfC, mulf_apply, mulf_apply, colBroadcast_apply, colBroadcast_apply,
    gather_rows_apply hN wfC, gather_rows_apply hN wf1]

/-- GATHERING ROWS SCALED TWICE: the rows of `(x · n) · n` named by `idx` are the rows of `x` named by `idx`, each
    times the square of the entry of `n` named by the same start word (the product of extended reals is associative). -/
theorem gather_twice_scaled_rows (hN : 0 < N)
    (hbN hbN' : (⟨2, ![N, 1]⟩ : Shape).BroadcastsInDim ⟨2, ![N, C]⟩ (![0, 1] : Fin 2 → Fin 2))
    (x : FVec Ideal ⟨2, ![N, C]⟩ φ) (n : FVec Ideal ⟨2, ![N, 1]⟩ φ) (idx : IVec ⟨2, ![M, 1]⟩ w) :
    Host.gather (rowGatherDims N M C wfC)
        (mulf (mulf x (broadcastInDim ⟨2, ![N, C]⟩ ![0, 1] hbN n)) (broadcastInDim ⟨2, ![N, C]⟩ ![0, 1] hbN' n)) idx
      = mulf (Host.gather (rowGatherDims N M C wfC) x idx)
          (broadcastInDim ⟨2, ![M, C]⟩ ![0, 1] hbM
            (mulf (Host.gather (rowGatherDims N M 1 wf1) n idx) (Host.gather (rowGatherDims N M 1 wf1) n idx))) := by
  funext j
  obtain ⟨e, f, rfl⟩ : ∃ (e : Fin M) (f : Fin C), j = ix2 e f := ⟨j 0, j 1, eq_ix2 j⟩
  rw [gather_rows_apply hN wfC, mulf_apply, mulf_apply, mulf_apply, colBroadcast_apply, colBroadcast_apply,
    mulf_apply, gather_rows_apply hN wfC, gather_rows_apply hN wf1]
  exact mul_assoc _ _ _

end

end Cert.Lib.GatherScale

end
-- ==== Proof.Bridge.lean ====
/-
  THE KERNEL'S PROPAGATED FEATURES ARE THE REFERENCE'S.

  Both programs propagate twice along the edges with the symmetric normalisation `norm = (max(in-degree, 1))^(-1/2)`.
  The reference scales whole node arrays and then gathers the source rows:
      h1 = Σ_{edges into v} (a0 · norm)[src],            h2 = Σ_{edges into v} ((h1 · norm) · norm)[src].
  The kernel gathers first and scales per edge by the gathered factor, once in the first hop and by its square in the second:
      h1 = Σ_{edges into v} a0[src] · norm[src],         h2 = Σ_{edges into v} h1[src] · (norm[src] · norm[src]).
  A row gather reads one source row per edge, the same row of the features and of the factor column, so scaling before
  the gather is scaling after it (`Cert.Lib.GatherScale`); the second hop also uses associativity of the product of
  extended reals. What the edges carry is therefore the same array in both programs, hop by hop, and the sum onto the
  edge targets is the same function of it; so are the factor column, the start words and the zero array the sums start from.
-/
import proofs.«133800_j90108413870524_2_alg».proof.Proof.KernelPrefix
import proofs.«133800_j90108413870524_2_alg».proof.Proof.Gen.ReferenceIdeal.Read
import proofs.«133800_j90108413870524_2_alg».proof.Proof.LibGatherScale

noncomputable section

namespace Cert.Bridge

open Idealize.ShloMosaic Idealize.ShloMosaic.TcCoe Cert.Lib.GatherScale Cert.Lib.ScatterGather
open Cert.KernelIdeal.Prefix Cert.ReferenceIdeal.Read

variable (a0 : (⟨Cert.KernelIdeal.S100000x64, .f32⟩ : BufTy).Contents (Elt Ideal))
  (a1 a2 : (⟨Cert.KernelIdeal.S1000000, .i32⟩ : BufTy).Contents (Elt Ideal))

/-- The per-node factor column is the same term in both programs. -/
theorem norm_eq : norm (F := Ideal) a2 = val_main_v8 (F := Ideal) a2 := rfl

/-- So are the source start words (the reference computes them once per hop) … -/
theorem srcWords_eq : srcWords (F := Ideal) a1 = val_main_v16 (F := Ideal) a1 := rfl
theorem srcWords_eq' : srcWords (F := Ideal) a1 = val_main_v30 (F := Ideal) a1 := rfl

/-- THE FIRST HOP'S EDGES: gathering the source rows and scaling each by its source's factor is gathering the rows of the
    scaled node array. -/
theorem edges1_eq : edges1 (F := Ideal) a0 a1 a2 = val_main_v17 (F := Ideal) a0 a1 a2 :=
  (gather_scaled_rows (N := 100000) (M := 1000000) (C := 64) (w := 32) (φ := .f32)
    Cert.KernelIdeal.Facts₀.gather_S100000x64_S1000000x1_S1000000x64_1_0_n_n_0_1_164_wf
    Cert.KernelIdeal.Facts₀.gather_S100000x1_S1000000x1_S1000000x1_1_0_n_n_0_1_11_wf
    Cert.KernelIdeal.Facts₀.bcast_S1000000x1_S1000000x64_0_1 (by decide)
    Cert.ReferenceIdeal.Facts₀.bcast_S100000x1_S100000x64_0_1 a0 (norm (F := Ideal) a2) (srcWords (F := Ideal) a1)).symm

/-- So the first hop is the same array. -/
theorem hop1_eq : hop1 (F := Ideal) a0 a1 a2 = val_main_v20 (F := Ideal) a0 a1 a2 := by
  unfold hop1 val_main_v20
  rw [edges1_eq]
  rfl

/-- THE SECOND HOP'S EDGES: gathering the first-hop rows and scaling each by the square of its source's factor is gathering
    the rows of the node array scaled twice. -/
theorem edges2_eq : edges2 (F := Ideal) a0 a1 a2 = val_main_v31 (F := Ideal) a0 a1 a2 := by
  unfold edges2
  rw [hop1_eq]
  exact (gather_twice_scaled_rows (N := 100000) (M := 1000000) (C := 64) (w := 32) (φ := .f32)
    Cert.KernelIdeal.Facts₀.gather_S100000x64_S1000000x1_S1000000x64_1_0_n_n_0_1_164_wf
    Cert.KernelIdeal.Facts₀.gather_S100000x1_S1000000x1_S1000000x1_1_0_n_n_0_1_11_wf
    Cert.KernelIdeal.Facts₀.bcast_S1000000x1_S1000000x64_0_1 (by decide)
    Cert.ReferenceIdeal.Facts₀.bcast_S100000x1_S100000x64_0_1 Cert.ReferenceIdeal.Facts₀.bcast_S100000x1_S100000x64_0_1
    (val_main_v20 (F := Ideal) a0 a1 a2) (norm (F := Ideal) a2) (srcWords (F := Ideal) a1)).symm

/-- So the second hop — the array the kernel's region reads its features from — is the reference's. -/
theorem hop2_eq : hop2 (F := Ideal) a0 a1 a2 = val_main_v34 (F := Ideal) a0 a1 a2 := by
  unfold hop2 val_main_v34
  rw [edges2_eq]
  rfl

end Cert.Bridge

end
-- ==== Proof.KernelResult.lean ====
/-
  THE KERNEL'S RESULT IN THE REFERENCE'S TERMS.

  The region's result array is the last layer (`Cert.Spec.denseRows`) of the four arrays the region finds. Those are the
  second-hop features, which are the reference's second-hop array; the factor column, which is the reference's; the weights as
  launched; and the bias laid out as a row, whose entry `(0, q)` is the bias at `q`.
-/
import proofs.«133800_j90108413870524_2_alg».proof.Proof.KernelWhole
import proofs.«133800_j90108413870524_2_alg».proof.Proof.Bridge

noncomputable section

namespace Cert.KernelIdeal.Whole

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The kernel's result array is the last layer of the reference's second-hop array and factor column (at the kernel's
    arguments), the weights and the bias. -/
theorem result_eq (c : Dev nD) :
    result m c
      = Cert.Spec.denseRows
          (Cert.ReferenceIdeal.Read.val_main_v34 (F := Ideal) (m ((c.tc : Thread nD τ).loc main_arg0))
            (m ((c.tc : Thread nD τ).loc main_arg1)) (m ((c.tc : Thread nD τ).loc main_arg2)))
          (Cert.ReferenceIdeal.Read.val_main_v8 (F := Ideal) (m ((c.tc : Thread nD τ).loc main_arg2)))
          (m ((c.tc : Thread nD τ).loc main_arg3))
          (fun q => (m ((c.tc : Thread nD τ).loc main_arg4) : S64.Idx → EReal) (ix1 q)) := by
  unfold result
  rw [Cert.KernelIdeal.Prefix.V_hop2, Cert.KernelIdeal.Prefix.V_norm, Cert.KernelIdeal.Prefix.V_biasRow, V_main_arg3,
    Cert.Bridge.hop2_eq, Cert.Bridge.norm_eq]
  simp only [Cert.KernelIdeal.Prefix.biasRow_apply]

end Cert.KernelIdeal.Whole

end
-- ==== Proof.ReferenceWhole.lean ====
/-
  THE REFERENCE'S RESULT ARRAY AS THE LAST LAYER OF ITS OWN STAGES.

  The reference ends with `(h · norm) W + b`: its second-hop array `h` scaled row by row by the per-node factors, the host's
  product with the weights contracted over the 64 features, and the bias repeated over the rows. Read at node `r` and
  channel `e` on the extended reals that is `Σ_k (h (r, k) · norm (r, 0)) · W (k, e) + b e`: `Cert.Spec.denseRows` of
  `h`, the factor column, the weights and the bias.
-/
import proofs.«133800_j90108413870524_2_alg».proof.Proof.Gen.ReferenceIdeal.Read
import proofs.«133800_j90108413870524_2_alg».proof.Proof.DenseSpec

noncomputable section

namespace Cert.ReferenceIdeal.Whole

open Cert.ReferenceIdeal Cert.ReferenceIdeal.Gen Cert.ReferenceIdeal.Read Idealize.ShloMosaic Idealize.ShloMosaic.TcCoe
open Idealize.ShloMosaic.ValueIdx

/-- The reference's result is the last layer of its second-hop array, its factor column, the weights and the bias. -/
theorem result_eq (x0 : (⟨S100000x64, .f32⟩ : BufTy).Contents (Elt Ideal)) (x1 x2 : (⟨S1000000, .i32⟩ : BufTy).Contents (Elt Ideal))
    (x3 : (⟨S64x64, .f32⟩ : BufTy).Contents (Elt Ideal)) (x4 : (⟨S64, .f32⟩ : BufTy).Contents (Elt Ideal)) :
    val_main_v40 (F := Ideal) x0 x1 x2 x3 x4
      = Cert.Spec.denseRows (val_main_v34 (F := Ideal) x0 x1 x2) (val_main_v8 (F := Ideal) x2) x3 (fun q => x4 (ix1 q)) := by
  funext i
  obtain ⟨r, e, rfl⟩ : ∃ (r : Fin 100000) (e : Fin 64), i = ix2 r e := ⟨i 0, i 1, eq_ix2 i⟩
  have el : ∀ k : Fin 64, lidx_main_v37 (ix2 r e) k = ix2 r k := fun k => funext fun a => Fin.ext (by
    match a with
    | ⟨0, _⟩ => rfl
    | ⟨1, _⟩ => rfl)
  have er : ∀ k : Fin 64, ridx_main_v37 (ix2 r e) k = ix2 k e := fun k => funext fun a => Fin.ext (by
    match a with
    | ⟨0, _⟩ => rfl
    | ⟨1, _⟩ => rfl)
  have en : ∀ k : Fin 64, idx_main_v35 (ix2 r k) = ix2 r (0 : Fin 1) := fun k => funext fun a => Fin.ext (by
    match a with
    | ⟨0, _⟩ => rfl
    | ⟨1, _⟩ => rfl)
  have eb : idx_main_v38 (idx_main_v39 (ix2 r e)) = ix1 e := funext fun a => Fin.ext (by
    match a with
    | ⟨0, _⟩ => rfl)
  rw [Cert.Spec.denseRows_apply, val_main_v40_apply, val_main_v37_apply, val_main_v39_apply, val_main_v38_apply, eb,
    Ideal.addf_def]
  unfold Cert.Spec.denseEntry
  refine congrArg (· + x4 (ix1 e)) (Finset.sum_congr rfl fun k _ => ?_)
  rw [el, er, val_main_v36_apply, val_main_v35_apply, en, Ideal.mulf_def]

end Cert.ReferenceIdeal.Whole

end
-- ==== Proof.lean ====
/- The proof of `Cert.Claim`: a two-hop graph propagation with symmetric degree normalisation followed by a dense layer.

   Both programs compute, per node `r` and output channel `e`,
       Σ_k (h2 (r, k) · norm (r, 0)) · W (k, e) + b e,
   where `norm = (max(in-degree, 1))^(-1/2)` and `h2` is the node features propagated twice along the edges. The reference
   scales the node array by `norm` before and after each propagation and gathers the source rows of the scaled array; the
   kernel gathers the source rows first and scales each edge's row by the gathered factor (its square in the second hop), and
   does the last scaling, the product with the weights and the bias inside a pipelined region over 20 blocks of 5000 rows.

   On the extended reals the two agree entry by entry:
     * a row gather reads one source row per edge, so it commutes with scaling the rows (Proof/LibGatherScale.lean, over the
       host gather read at an index in Proof/LibScatterGather.lean), and `(x · n) · n = x · (n · n)` by associativity — no
       entry has to be finite, so the precondition is never opened; the sums onto the edge targets are the same function of
       equal arrays (Proof/Bridge.lean, over the kernel's host stages named in Proof/KernelPrefix.lean);
     * what the region's body stores at an entry of its block is the last layer's formula (Proof/DenseBlock.lean: the block's
       product as a sum over the 64 features, narrowing to bf16 the identity), every block is the restriction of one whole-array
       function to its rows, and the blocks tile the array (Proof/KernelWhole.lean, Proof/KernelResult.lean);
     * the reference's last three operations are the same formula (Proof/ReferenceWhole.lean; the formula itself is
       Proof/DenseSpec.lean).
   The three frames are the generated ones (the reference's is its generated run with the result dropped); the idealization
   rewrote nothing, so `preserves` asks nothing. -/
import proofs.«133800_j90108413870524_2_alg».proof.Defs
import proofs.«133800_j90108413870524_2_alg».proof.Proof.Gen.Kernel
import proofs.«133800_j90108413870524_2_alg».proof.Proof.Gen.Kernel.Skeleton
import proofs.«133800_j90108413870524_2_alg».proof.Proof.Gen.Kernel.Launch
import proofs.«133800_j90108413870524_2_alg».proof.Proof.Gen.Kernel.Points
import proofs.«133800_j90108413870524_2_alg».proof.Proof.Gen.Kernel.Frame
import proofs.«133800_j90108413870524_2_alg».proof.Proof.Gen.KernelIdeal
import proofs.«133800_j90108413870524_2_alg».proof.Proof.Gen.KernelIdeal.Skeleton
import proofs.«133800_j90108413870524_2_alg».proof.Proof.Gen.KernelIdeal.Launch
import proofs.«133800_j90108413870524_2_alg».proof.Proof.Gen.KernelIdeal.Points
import proofs.«133800_j90108413870524_2_alg».proof.Proof.Gen.KernelIdeal.Frame
import proofs.«133800_j90108413870524_2_alg».proof.Proof.Gen.ReferenceIdeal
import proofs.«133800_j90108413870524_2_alg».proof.Proof.Gen.KernelIdeal.Value
import proofs.«133800_j90108413870524_2_alg».proof.Proof.Gen.ReferenceIdeal.Run
import proofs.«133800_j90108413870524_2_alg».proof.Proof.Gen.ReferenceIdeal.Read
import proofs.«133800_j90108413870524_2_alg».proof.Proof.Gen.Pre_finite_inputs
import proofs.«133800_j90108413870524_2_alg».proof.Proof.KernelResult
import proofs.«133800_j90108413870524_2_alg».proof.Proof.ReferenceWhole
import Idealize.ShloMosaic.Adequacy
import Idealize.ShloMosaic.Init

noncomputable section

namespace Cert.Proof

open Idealize.ShloMosaic Idealize.SL.Sem

/-- The printed kernel runs and leaves its arguments unchanged: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the last layer of the same second-hop array, the same
    factor column, the weights and the bias. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4⟩ := hagree c
  rw [Cert.ReferenceIdeal.Read.val_main_v40_eq, h0, h1, h2, h3, h4, Cert.ReferenceIdeal.Whole.result_eq]
  exact (Cert.KernelIdeal.Whole.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
